-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x2, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x2, .f32⟩
  | .hbm, ⟨75, _⟩ => ⟨S1700000x2, .f32⟩
  | .hbm, ⟨76, _⟩ => ⟨S1700000x2, .f32⟩
  | .hbm, ⟨77, _⟩ => ⟨S_, .f32⟩
  | .hbm, ⟨78, _⟩ => ⟨S100000x2, .f32⟩
  | .hbm, ⟨79, _⟩ => ⟨S1700000x1, .i32⟩
  | .hbm, ⟨80, _⟩ => ⟨S100000x2, .f32⟩
  | .hbm, ⟨81, _⟩ => ⟨S1x2, .f32⟩
  | .hbm, ⟨82, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x2_S32x2_0_0 : ∀ a, (![0, 0] : Fin 2 → Nat) a + S32x2.size a ≤ S32x2.size a
  h_S32x2 : 0 < S32x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x2_S10000x2_1_0_0_1_n_n_wf : DotDims.WF S10000x32 S32x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x2, .f32⟩
  | .hbm, ⟨80, _⟩ => ⟨S1700000x2, .f32⟩
  | .hbm, ⟨81, _⟩ => ⟨S1700000x2, .f32⟩
  | .hbm, ⟨82, _⟩ => ⟨S_, .f32⟩
  | .hbm, ⟨83, _⟩ => ⟨S100000x2, .f32⟩
  | .hbm, ⟨84, _⟩ => ⟨S1700000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x2_S100000x2_1_0_0_1_n_n_wf : DotDims.WF S100000x32 S32x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.Network.lean ====
/-
  A two-layer graph convolution, as one function of its six arrays.

  The graph has N = 100000 nodes and E = 1600000 directed edges given as two rows of node numbers (sources, targets);
  every node also gets a self loop, so the edge lists have E + N = 1700000 entries. A negative node number is read
  from the end (n + N), as array indexing does. With `deg` the number of list entries that target a node,
  `dinv = deg^(-1/2)` (0 where deg ≤ 0) and `norm e = dinv (src e) · dinv (tgt e)`, one propagation step sends a
  node table `h` to `agg h = scatter-add over edges e of (norm e · h (src e)) into row tgt e`.
  The network is
      out = log_softmax_rows ( agg ( relu ( agg (x · W1) + b1 ) · W2 ) + b2 ).
  The gathers and the scatter-adds are kept as the host operations themselves (both programs apply the very same
  ones); the three dense stages are written index by index: a row times a matrix is a finite sum over the contracted
  coordinate, and the row-wise log-softmax of a two-column table is z − m − log (exp (z₀ − m) + exp (z₁ − m)) with
  m the larger entry of the row.
-/
import proofs.«146846_j30459908063653_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀
open scoped BigOperators

/-- An integer table and a real-valued table of a given shape, at the ideal values. -/
abbrev IArr (s : Shape) := IVec s 32
abbrev FArr (s : Shape) := FVec Ideal s .f32

/-! ## The edge lists and the symmetric normalisation -/

/-- The sources of the edges, then the self loops 0 … N−1. -/
def sources (e : IArr S2x1600000) : IArr S1700000 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The targets of the edges, then the self loops 0 … N−1. -/
def targets (e : IArr S2x1600000) : IArr S1700000 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: n ↦ n + N where n < 0. -/
def fromEnd (r : IArr S1700000) : IArr S1700000 :=
  select (cmpi .slt r (broadcastInDim S1700000 ![] bcast_S_S1700000 (constantI S_ 32 0#32)))
    (addi r (broadcastInDim S1700000 ![] bcast_S_S1700000 (constantI S_ 32 100000#32))) r

/-- The in-degree of every node: ones added up at the targets. -/
def inDegree (tgt : IArr S1700000) : FArr S100000 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 tgt)
    (broadcastInDim S1700000 ![] bcast_S_S1700000 (constant (F := Ideal) S_ .f32 0x3F800000#32))

/-- deg^(-1/2) where the degree is positive, 0 elsewhere. -/
def invSqrtDegree (tgt : IArr S1700000) : FArr S100000 :=
  select (cmpf .ogt (inDegree tgt) (broadcastInDim S100000 ![] bcast_S_S100000 (constant (F := Ideal) S_ .f32 0x00000000#32)))
    (Host.rsqrt (inDegree tgt))
    (broadcastInDim S100000 ![] bcast_S_S100000 (id (constant (F := Ideal) S_ .f32 0x00000000#32)))

/-- The weight of every edge: dinv at its source times dinv at its target. -/
def edgeWeight (src tgt : IArr S1700000) : FArr S1700000 :=
  mulf (Host.gather gather_S100000_S1700000x1_S1700000_n_0_n_n_0_1_1 (invSqrtDegree tgt) (broadcastInDim S1700000x1 ![0] bcast_S1700000_S1700000x1_0 (fromEnd src)))
    (Host.gather gather_S100000_S1700000x1_S1700000_n_0_n_n_0_1_1 (invSqrtDegree tgt) (broadcastInDim S1700000x1 ![0] bcast_S1700000_S1700000x1_0 (fromEnd tgt)))

/-! ## One propagation step, for a table of 32 columns and for one of 2 -/

/-- Row `tgt e` of the result collects `wt e · h (src e)` over all edges `e`. -/
def propagate32 (wt : FArr S1700000) (src tgt : IArr S1700000) (h : FArr S100000x32) : FArr S100000x32 :=
  Host.scatterAdd scatter_S100000x32_S1700000x1_S1700000x32_1_0_0_1
    (broadcastInDim S100000x32 ![] bcast_S_S100000x32 (constant (F := Ideal) S_ .f32 0x00000000#32))
    (broadcastInDim S1700000x1 ![0] bcast_S1700000_S1700000x1_0 tgt)
    (mulf (broadcastInDim S1700000x32 ![0, 1] bcast_S1700000x1_S1700000x32_0_1 (broadcastInDim S1700000x1 ![0] bcast_S1700000_S1700000x1_0 wt))
      (Host.gather gather_S100000x32_S1700000x1_S1700000x32_1_0_n_n_0_1_132 h (broadcastInDim S1700000x1 ![0] bcast_S1700000_S1700000x1_0 (fromEnd src))))

def propagate2 (wt : FArr S1700000) (src tgt : IArr S1700000) (h : FArr S100000x2) : FArr S100000x2 :=
  Host.scatterAdd scatter_S100000x2_S1700000x1_S1700000x2_1_0_0_1
    (broadcastInDim S100000x2 ![] bcast_S_S100000x2 (constant (F := Ideal) S_ .f32 0x00000000#32))
    (broadcastInDim S1700000x1 ![0] bcast_S1700000_S1700000x1_0 tgt)
    (mulf (broadcastInDim S1700000x2 ![0, 1] bcast_S1700000x1_S1700000x2_0_1 (broadcastInDim S1700000x1 ![0] bcast_S1700000_S1700000x1_0 wt))
      (Host.gather gather_S100000x2_S1700000x1_S1700000x2_1_0_n_n_0_1_12 h (broadcastInDim S1700000x1 ![0] bcast_S1700000_S1700000x1_0 (fromEnd src))))

/-! ## The three dense stages, index by index -/

/-- x · W1: entry (r, c) is the sum over k of x (r, k) · W1 (k, c). -/
def inputTimesW1 (x : FArr S100000x128) (w : FArr S128x32) : FArr S100000x32 :=
  fun i => ∑ k : Fin 128, x (ix2 (i 0) k) * w (ix2 k (i 1))

/-- relu (a + b1) · W2 with the bias a one-row table: entry (r, c) is the sum over k of max (a (r, k) + b (0, k)) 0 · W2 (k, c). -/
def hiddenTimesW2 (a : FArr S100000x32) (b : FArr S1x32) (w : FArr S32x2) : FArr S100000x2 :=
  fun i => ∑ k : Fin 32, max (a (ix2 (i 0) k) + b (ix2 0 k)) (Ideal.ofBits .f32 0x00000000#32) * w (ix2 k (i 1))

/-- A row of the biased table. -/
def biasedRow (a : FArr S100000x2) (b : FArr S1x2) (r : Fin 100000) (j : Fin 2) : EReal := a (ix2 r j) + b (ix2 0 j)

/-- log_softmax of one row z of two entries, at entry q: z_q − m − log Σ_j exp (z_j − m), m the larger entry
    (the fold of max from −∞). -/
def rowLogSoftmax (z : Fin 2 → EReal) (q : Fin 2) : EReal :=
  (z q - (Finset.univ : Finset (Fin 2)).fold max (Ideal.ofBits .f32 0xFF800000#32) z)
    - Ideal.log (∑ j : Fin 2, Ideal.exp (z j - (Finset.univ : Finset (Fin 2)).fold max (Ideal.ofBits .f32 0xFF800000#32) z))

/-- log_softmax over the two columns of the biased table, row by row. -/
def logSoftmaxRows (a : FArr S100000x2) (b : FArr S1x2) : FArr S100000x2 :=
  fun i => rowLogSoftmax (biasedRow a b (i 0)) (i 1)

/-- A bias vector laid out as a one-row table. -/
def asRow32 (b : FArr S32) : FArr S1x32 := fun i => b (ix1 (i 1))
def asRow2 (b : FArr S2) : FArr S1x2 := fun i => b (ix1 (i 1))

/-- The whole network on the six arrays. -/
def network (x : FArr S100000x128) (e : IArr S2x1600000) (w1 : FArr S128x32) (b1 : FArr S32) (w2 : FArr S32x2) (b2 : FArr S2) : FArr S100000x2 :=
  logSoftmaxRows
    (propagate2 (edgeWeight (sources e) (targets e)) (sources e) (targets e)
      (hiddenTimesW2 (propagate32 (edgeWeight (sources e) (targets e)) (sources e) (targets e) (inputTimesW1 x w1)) (asRow32 b1) w2))
    (asRow2 b2)

end Cert.Gcn

end
-- ==== Proof.KernelRun.lean ====
/-
  The kernel program's run with its result named: the program is eight segments — three stretches of host operations,
  the first dense stage, a stretch, the second dense stage, a stretch, the last stage — and every weakly fair execution
  goes through them in order, each segment leaving every buffer at the next boundary's contents. So the run ends with the
  result buffer at the last boundary's contents, and the six arguments as launched.
-/
import proofs.«146846_j30459908063653_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.Dense1.lean ====
/-
  The first dense stage: the kernel multiplies x by W1 one block of 10000 rows at a time (ten grid points), each block
  by the whole of W1 with a zero accumulator. Row r of the result lies in block r / 10000, and its entry (r, c) is the sum
  over k of x (r, k) · W1 (k, c) whichever block computed it: the blocks are restrictions of ONE product, and they cover
  the rows 0 … 99999. (Narrowing the operands to bf16 first changes nothing at the ideal values.)
-/
import proofs.«146846_j30459908063653_1_alg».proof.Proof.Gen.KernelIdeal.Frame
import proofs.«146846_j30459908063653_1_alg».proof.Proof.Network
import proofs.«146846_j30459908063653_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Dense1

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.SL.Sem
open Idealize.ShloMosaic.Pipeline (Dat)
open scoped BigOperators

local notation "dotK" => dot_S10000x128_S128x32_S10000x32_1_0_0_1_n_n

theorem hz : (![0, 0] : Fin 2 → Nat) = fun _ => 0 := funext fun a => by fin_cases a <;> rfl

/-- Where the block product's dimension numbers send an output index and a contraction index. -/
theorem lhs0 (i : S10000x32.Idx) (q : (dotK).contr.Idx) : ((dotK).lhsIdx i q 0).val = (i 0).val := by
  unfold DotDims.lhsIdx
  rw [dif_neg (show ¬(0 : Fin S10000x128.rank) ∈ (dotK).lhsBatch by decide), dif_pos (show (0 : Fin S10000x128.rank) ∈ (dotK).lhsNonContracting by decide)]
  rfl
theorem lhs1 (i : S10000x32.Idx) (q : (dotK).contr.Idx) : ((dotK).lhsIdx i q 1).val = (q ⟨0, by decide⟩).val :=
  (dotK).lhsIdx_val_of_single rfl i q
theorem rhs0 (i : S10000x32.Idx) (q : (dotK).contr.Idx) : ((dotK).rhsIdx i q 0).val = (q ⟨0, by decide⟩).val :=
  (dotK).rhsIdx_val_of_single rfl i q
theorem rhs1 (i : S10000x32.Idx) (q : (dotK).contr.Idx) : ((dotK).rhsIdx i q 1).val = (i 1).val := by
  unfold DotDims.rhsIdx
  rw [dif_neg (show ¬(1 : Fin S128x32.rank) ∈ (dotK).rhsBatch by decide), dif_pos (show (1 : Fin S128x32.rank) ∈ (dotK).rhsNonContracting by decide)]
  rfl

/-- One block's product at an entry: the sum over the 128 columns of the block's row times W1's column. -/
theorem pay_apply (x0 : Vec Ideal S10000x128 .f32) (x1 : Vec Ideal S128x32 .f32) (j : S10000x32.Idx) :
    k0_pay1 x0 x1 j = ∑ k : Fin 128, x0 (ix2 (j 0) k) * x1 (ix2 k (j 1)) := by
  unfold k0_pay1
  show matmul dotK none (truncf .bf16 x0 _) (truncf .bf16 x1 _) (constant (F := Ideal) S10000x32 .f32 0x00000000#32) j = _
  simp only [matmul]
  rw [Ideal.matmul_constant_zero_apply]
  exact PlainDot.sum_contr_eq dotK rfl rfl lhs0 lhs1 rhs0 rhs1 _ _ j

variable (V : (c : Dev nD) → (b : Ref sig .tc) → Buf (Elt Ideal) ((c : Thread nD τ).loc b))

/-- The printed index maps over the ten grid points: x's and the result's block number is the point, W1's block is the whole of W1. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W1. -/
theorem flushed_eq (c : Dev nD) (t : Fin cfg0.N) :
    (dat0 V c).flushed 2 t = ((cfg0.win 2).blk t).view.read (Elt Ideal) (inputTimesW1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  show k0_pay1 (iblk0 V c 0 t) (iblk0 V c 1 t) j = inputTimesW1 (V c main_arg0) (V c main_arg2) (((cfg0.win 2).blk t).view.emb j)
  rw [pay_apply]
  unfold inputTimesW1
  refine Finset.sum_congr rfl fun k _ => ?_
  have hj0 : (j 0).val < 10000 := (j 0).isLt
  have hj1 : (j 1).val < 32 := (j 1).isLt
  have hk : k.val < 128 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 32 + 1 * (j 1).val = win0_2.index t (1 : Fin 2) * 32 + 1 * (j 1).val; omega
  exact congrArg₂ (fun a b : EReal => a * b) (congrArg (V c main_arg0) h0) (congrArg (V c main_arg2) h1)

/-- An index of the result is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Every row lies in the block of the point r / 10000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  refine ⟨⟨(i 0).val / 10000, by rw [show cfg0.N = 10 from N_0]; omega⟩, flush0_2 _, ?_⟩
  rw [mem_blk]
  obtain ⟨e0, e1, e2, e3, e4, e5⟩ := idx_facts ⟨(i 0).val / 10000, by rw [show cfg0.N = 10 from N_0]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 32 ≤ (i 1).val ∧ (i 1).val < win0_2.index _ (1 : Fin 2) * 32 + 32; rw [e5]; omega

/-- After the region, the result array is x · W1 of the arrays the region found. -/
theorem final (c : Dev nD) : (dat0 V c).arrAt 2 cfg0.N = inputTimesW1 (V c main_arg0) (V c main_arg2) :=
  (dat0 V c).arrAt_eq_of_cover 2 _ (fun t _ => flushed_eq V c t) (cover)

end Cert.Gcn.Dense1

end
-- ==== Proof.Dense2.lean ====
/-
  The second dense stage: relu (agg + b1) · W2, again one block of 10000 rows per grid point, each block against the whole
  bias row and the whole of W2. Entry (r, c) of a block's result is the sum over the 32 hidden columns k of
  max (agg (r, k) + b1 (k)) 0 · W2 (k, c): it depends on row r alone, so the blocks are restrictions of one table, and the
  ten blocks cover the rows 0 … 99999. (Narrowing to bf16 before the product changes nothing at the ideal values.)
-/
import proofs.«146846_j30459908063653_1_alg».proof.Proof.Gen.KernelIdeal.Frame
import proofs.«146846_j30459908063653_1_alg».proof.Proof.Network
import proofs.«146846_j30459908063653_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Dense2

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.SL.Sem
open Idealize.ShloMosaic.Pipeline (Dat)
open scoped BigOperators

local notation "dotK" => dot_S10000x32_S32x2_S10000x2_1_0_0_1_n_n

theorem hz : (![0, 0] : Fin 2 → Nat) = fun _ => 0 := funext fun a => by fin_cases a <;> rfl

/-- Where the block product's dimension numbers send an output index and a contraction index. -/
theorem lhs0 (i : S10000x2.Idx) (q : (dotK).contr.Idx) : ((dotK).lhsIdx i q 0).val = (i 0).val := by
  unfold DotDims.lhsIdx
  rw [dif_neg (show ¬(0 : Fin S10000x32.rank) ∈ (dotK).lhsBatch by decide), dif_pos (show (0 : Fin S10000x32.rank) ∈ (dotK).lhsNonContracting by decide)]
  rfl
theorem lhs1 (i : S10000x2.Idx) (q : (dotK).contr.Idx) : ((dotK).lhsIdx i q 1).val = (q ⟨0, by decide⟩).val :=
  (dotK).lhsIdx_val_of_single rfl i q
theorem rhs0 (i : S10000x2.Idx) (q : (dotK).contr.Idx) : ((dotK).rhsIdx i q 0).val = (q ⟨0, by decide⟩).val :=
  (dotK).rhsIdx_val_of_single rfl i q
theorem rhs1 (i : S10000x2.Idx) (q : (dotK).contr.Idx) : ((dotK).rhsIdx i q 1).val = (i 1).val := by
  unfold DotDims.rhsIdx
  rw [dif_neg (show ¬(1 : Fin S32x2.rank) ∈ (dotK).rhsBatch by decide), dif_pos (show (1 : Fin S32x2.rank) ∈ (dotK).rhsNonContracting by decide)]
  rfl

/-- One block's result at an entry: the sum over the 32 hidden columns of the rectified biased entry times W2's column. -/
theorem pay_apply (x0 : Vec Ideal S10000x32 .f32) (x1 : Vec Ideal S1x32 .f32) (x2 : Vec Ideal S32x2 .f32) (j : S10000x2.Idx) :
    k1_pay1 x0 x1 x2 j = ∑ k : Fin 32, max (x0 (ix2 (j 0) k) + x1 (ix2 (0 : Fin 1) k)) (Ideal.ofBits .f32 0x00000000#32) * x2 (ix2 k (j 1)) := by
  obtain ⟨p, q, rfl⟩ : ∃ (p : Fin 10000) (q : Fin 2), j = ix2 p q := ⟨j 0, j 1, eq_ix2 j⟩
  show k1_pay1 x0 x1 x2 (ix2 p q) = ∑ k : Fin 32, max (x0 (ix2 p k) + x1 (ix2 (0 : Fin 1) k)) (Ideal.ofBits .f32 0x00000000#32) * x2 (ix2 k q)
  unfold k1_pay1
  show matmul dotK none (truncf .bf16 (maximumf (addf (shapeCast S10000x32 x0 _) (broadcastTo S10000x32 (shapeCast S1x32 x1 _) _)) (broadcast S10000x32 (Scalar.ofBits (F := Ideal) .f32 0x00000000#32))) _) (truncf .bf16 x2 _) (constant (F := Ideal) S10000x2 .f32 0x00000000#32) (ix2 p q) = _
  simp only [matmul]
  rw [Ideal.matmul_constant_zero_apply]
  refine (PlainDot.sum_contr_eq dotK rfl rfl lhs0 lhs1 rhs0 rhs1 _ _ (ix2 p q)).trans ?_
  refine Finset.sum_congr rfl fun k _ => ?_
  rw [shapeCast_self, shapeCast_self]
  show max (x0 (ix2 p k) + broadcastTo S10000x32 x1 _ (ix2 p k)) (Ideal.ofBits .f32 0x00000000#32) * x2 (ix2 k q) = _
  rw [broadcastTo_1b_ab_apply]

variable (V : (c : Dev nD) → (b : Ref sig .tc) → Buf (Elt Ideal) ((c : Thread nD τ).loc b))

/-- The printed index maps over the ten grid points: the input table's and the result's block number is the point, the
    bias row and W2 are taken whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of relu (agg + b1) · W2. -/
theorem flushed_eq (c : Dev nD) (t : Fin cfg1.N) :
    (dat1 V c).flushed 3 t = ((cfg1.win 3).blk t).view.read (Elt Ideal) (hiddenTimesW2 (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x2) hz]
  obtain ⟨e0, e1, e2, e3, e4, e5, e6, e7⟩ := idx_facts t
  funext j
  show k1_pay1 (iblk1 V c 0 t) (iblk1 V c 1 t) (iblk1 V c 2 t) j = hiddenTimesW2 (V c main_v43) (V c main_v44) (V c main_arg4) (((cfg1.win 3).blk t).view.emb j)
  rw [pay_apply]
  unfold hiddenTimesW2
  refine Finset.sum_congr rfl fun k _ => ?_
  have hj0 : (j 0).val < 10000 := (j 0).isLt
  have hj1 : (j 1).val < 2 := (j 1).isLt
  have hk : k.val < 32 := k.isLt
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 32 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 32 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 32 + 1 * k.val = k.val; omega
    | ⟨1, _⟩ => show win1_2.index t (1 : Fin 2) * 2 + 1 * (j 1).val = win1_3.index t (1 : Fin 2) * 2 + 1 * (j 1).val; omega
  exact congrArg₂ (fun a b : EReal => a * b)
    (congrArg₂ (fun a b : EReal => max (a + b) (Ideal.ofBits .f32 0x00000000#32)) (congrArg (V c main_v43) h0) (congrArg (V c main_v44) h1))
    (congrArg (V c main_arg4) h2)

/-- An index of the result is in point t's block iff each coordinate is in the block's range on its axis. -/
theorem mem_blk (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v45).slice (win1_3.rect t)).set ↔ _
  rw [View.set_slice_whole, Rect.mem_set_unit]
  exact Iff.rfl

/-- Every row lies in the block of the point r / 10000. -/
theorem cover (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  refine ⟨⟨(i 0).val / 10000, by rw [show cfg1.N = 10 from N_1]; omega⟩, flush1_3 _, ?_⟩
  rw [mem_blk]
  obtain ⟨e0, e1, e2, e3, e4, e5, e6, e7⟩ := idx_facts ⟨(i 0).val / 10000, by rw [show cfg1.N = 10 from N_1]; omega⟩
  intro a
  match a with
  | ⟨0, _⟩ => show win1_3.index _ (0 : Fin 2) * 10000 ≤ (i 0).val ∧ (i 0).val < win1_3.index _ (0 : Fin 2) * 10000 + 10000; rw [e6]; show (i 0).val / 10000 * 10000 ≤ (i 0).val ∧ (i 0).val < (i 0).val / 10000 * 10000 + 10000; omega
  | ⟨1, _⟩ => show win1_3.index _ (1 : Fin 2) * 2 ≤ (i 1).val ∧ (i 1).val < win1_3.index _ (1 : Fin 2) * 2 + 2; rw [e7]; omega

/-- After the region, the result array is relu (agg + b1) · W2 of the arrays the region found. -/
theorem final (c : Dev nD) : (dat1 V c).arrAt 3 cfg1.N = hiddenTimesW2 (V c main_v43) (V c main_v44) (V c main_arg4) :=
  (dat1 V c).arrAt_eq_of_cover 3 _ (fun t _ => flushed_eq V c t) (cover)

end Cert.Gcn.Dense2

end
-- ==== Proof.LibRowReduce.lean ====
/-
  Reductions along the rows of a two-axis table, read at a row.

  Reducing an [a, b] table over its second axis gives, at row p, the sum (or the running maximum from the accumulator's
  value) of the b entries of that row: the general one-axis laws with the inserted coordinate spelt out.
-/
import Idealize.ShloMosaic.PureOps.Ideal.Laws
import Idealize.ShloMosaic.Lib.ValueIdx

noncomputable section

namespace Idealize.ShloMosaic.RowReduce

open Idealize.ShloMosaic Idealize.ShloMosaic.ValueIdx
open scoped BigOperators

variable {φ : FTy}

/-- Putting the column coordinate back into a row index. -/
theorem lift_row {a b : ℕ} (h : (⟨2, ![a, b]⟩ : Shape).Reduces [(1 : Fin 2)] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ => first | rfl | simp
  | ⟨1, _⟩ => first | rfl | simp

/-- The sum over a row. -/
theorem rowSum_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ k : Fin b, src (h.lift (ix1 p) k) = _
  exact Finset.sum_congr rfl fun k _ => congrArg src (lift_row h p k)

/-- The maximum over a row, folded from the accumulator's value. -/
theorem rowMax_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun k => src (h.lift (ix1 p) k)) = _
  exact congrArg (fun f : Fin b → EReal => (Finset.univ : Finset (Fin b)).fold max (Ideal.ofBits φ acc) f) (funext fun k => congrArg src (lift_row h p k))

end Idealize.ShloMosaic.RowReduce

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LogSoftmax.lean ====
/-
  The last stage: log_softmax (agg + b2) over the two columns, one block of 10000 rows per grid point against the whole
  bias row. Within a block, row p of the result needs only row p of the block: with z_c = agg (p, c) + b2 (c) and m the
  larger of the two (the row maximum, folded from −∞ and kept as a one-column table that is spread back over both
  columns), the entry at column q is z_q − m − log (exp (z_0 − m) + exp (z_1 − m)). So the blocks are restrictions of one
  row-wise function of the whole table, and the ten blocks cover the rows 0 … 99999.
-/
import proofs.«146846_j30459908063653_1_alg».proof.Proof.Gen.KernelIdeal.Frame
import proofs.«146846_j30459908063653_1_alg».proof.Proof.Network
import proofs.«146846_j30459908063653_1_alg».proof.Proof.LibRowReduce
import proofs.«146846_j30459908063653_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.LogSoftmax

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.SL.Sem
open Idealize.ShloMosaic.Pipeline (Dat)
open scoped BigOperators

open Idealize.ShloMosaic.ColumnLayout Idealize.ShloMosaic.RowReduce

theorem hz : (![0, 0] : Fin 2 → Nat) = fun _ => 0 := funext fun a => by fin_cases a <;> rfl

/-- The body from the biased block on: subtract the row maximum, then the log of the row's sum of exponentials. -/
theorem core_apply (v5 : FVec Ideal S10000x2 .f32) (p : Fin 10000) (q : Fin 2) :
    subf (subf v5 (broadcastTo S10000x2 (shapeCast S10000x1 (multiReduction .maximumf [1] S10000 v5 0xFF800000#32 Facts₀.reduces_S10000x2_S10000 (.inl rfl) rfl) Facts₀.shapeCasts_S10000_S10000x1) Facts₀.broadcasts_S10000x1_S10000x2))
      (broadcastTo S10000x2 (log (shapeCast S10000x1 (multiReduction .add [1] S10000 (exp (subf v5 (broadcastTo S10000x2 (shapeCast S10000x1 (multiReduction .maximumf [1] S10000 v5 0xFF800000#32 Facts₀.reduces_S10000x2_S10000 (.inl rfl) rfl) Facts₀.shapeCasts_S10000_S10000x1) Facts₀.broadcasts_S10000x1_S10000x2))) 0x00000000#32 Facts₀.reduces_S10000x2_S10000 (.inl rfl) rfl) Facts₀.shapeCasts_S10000_S10000x1)) Facts₀.broadcasts_S10000x1_S10000x2) (ix2 p q)
    = rowLogSoftmax (fun c => v5 (ix2 p c)) q := by
  have hm : ∀ c : Fin 2, broadcastTo S10000x2 (shapeCast S10000x1 (multiReduction .maximumf [1] S10000 v5 0xFF800000#32 Facts₀.reduces_S10000x2_S10000 (.inl rfl) rfl) Facts₀.shapeCasts_S10000_S10000x1) Facts₀.broadcasts_S10000x1_S10000x2 (ix2 p c)
      = (Finset.univ : Finset (Fin 2)).fold max (Ideal.ofBits .f32 0xFF800000#32) (fun c => v5 (ix2 p c)) := fun c => by
    rw [broadcastTo_a1_ab_apply, shapeCast_a_a1_apply]
    exact rowMax_apply v5 _ _ _ _ p
  unfold rowLogSoftmax
  show (v5 (ix2 p q) - _) - broadcastTo S10000x2 (log _) Facts₀.broadcasts_S10000x1_S10000x2 (ix2 p q) = _
  rw [hm q, broadcastTo_a1_ab_apply]
  show _ - Ideal.log (shapeCast S10000x1 _ Facts₀.shapeCasts_S10000_S10000x1 (ix2 p (0 : Fin 1))) = _
  rw [shapeCast_a_a1_apply]
  refine (congrArg (fun s : EReal => (v5 (ix2 p q) - (Finset.univ : Finset (Fin 2)).fold max (Ideal.ofBits .f32 0xFF800000#32) (fun c => v5 (ix2 p c))) - Ideal.log s) (rowSum_apply _ _ _ _ _ p)).trans ?_
  refine congrArg (fun s : EReal => (v5 (ix2 p q) - (Finset.univ : Finset (Fin 2)).fold max (Ideal.ofBits .f32 0xFF800000#32) (fun c => v5 (ix2 p c))) - Ideal.log s) (Finset.sum_congr rfl fun c _ => ?_)
  show Ideal.exp (v5 (ix2 p c) - _) = _
  rw [hm c]

/-- The biased block at an entry. -/
theorem biased_apply (x0 : FVec Ideal S10000x2 .f32) (x1 : FVec Ideal S1x2 .f32) (p : Fin 10000) (c : Fin 2) :
    addf x0 (broadcastTo S10000x2 x1 Facts₀.broadcasts_S1x2_S10000x2) (ix2 p c) = x0 (ix2 p c) + x1 (ix2 (0 : Fin 1) c) := by
  show x0 (ix2 p c) + broadcastTo S10000x2 x1 _ (ix2 p c) = _
  rw [broadcastTo_1b_ab_apply]

/-- One block's result at an entry: the log-softmax of the block's biased row. -/
theorem pay_apply (x0 : Vec Ideal S10000x2 .f32) (x1 : Vec Ideal S1x2 .f32) (p : Fin 10000) (q : Fin 2) :
    k2_pay1 x0 x1 (ix2 p q) = rowLogSoftmax (fun c => x0 (ix2 p c) + x1 (ix2 (0 : Fin 1) c)) q := by
  unfold k2_pay1
  dsimp only
  rw [shapeCast_self, shapeCast_self]
  refine (core_apply _ p q).trans ?_
  exact congrArg (fun z => rowLogSoftmax z q) (funext fun c => biased_apply x0 x1 p c)

variable (V : (c : Dev nD) → (b : Ref sig .tc) → Buf (Elt Ideal) ((c : Thread nD τ).loc b))

/-- The printed index maps over the ten grid points: the table's and the result's block number is the point, the bias row
    is taken whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the row-wise log-softmax of the biased table. -/
theorem flushed_eq (c : Dev nD) (t : Fin cfg2.N) :
    (dat2 V c).flushed 2 t = ((cfg2.win 2).blk t).view.read (Elt Ideal) (logSoftmaxRows (V c main_v58) (V c main_v59)) := by
  show (cfg2.win 2).cut (grid2.coords t) ((dat2 V c).after 2 t) = _
  rw [after2_2]
  unfold out2_2
  rw [View.canon_unit_zero hz]
  simp only [View.ld_unit_zero (S := S10000x2) hz, View.ld_unit_zero (S := S1x2) hz]
  obtain ⟨e0, e1, e2, e3, e4, e5⟩ := idx_facts t
  funext j
  obtain ⟨p, q, rfl⟩ : ∃ (p : Fin 10000) (q : Fin 2), j = ix2 p q := ⟨j 0, j 1, eq_ix2 j⟩
  show k2_pay1 (iblk2 V c 0 t) (iblk2 V c 1 t) (ix2 p q) = logSoftmaxRows (V c main_v58) (V c main_v59) (((cfg2.win 2).blk t).view.emb (ix2 p q))
  rw [pay_apply]
  unfold logSoftmaxRows
  have hp : p.val < 10000 := p.isLt
  have hq : q.val < 2 := q.isLt
  have hq' : ((((cfg2.win 2).blk t).view.emb (ix2 p q)) 1) = q := by
    apply Fin.ext
    show win2_2.index t (1 : Fin 2) * 2 + 1 * q.val = q.val; omega
  rw [hq']
  refine congrArg (fun z => rowLogSoftmax z q) (funext fun k => ?_)
  have hk : k.val < 2 := k.isLt
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 2 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 2 + 1 * k.val = k.val; omega
  unfold biasedRow
  exact congrArg₂ (fun a b : EReal => a + b) (congrArg (V c main_v58) h0) (congrArg (V c main_v59) h1)

/-- An index of the result is in point t's block iff each coordinate is in the block's range on its axis. -/
theorem mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v60).slice (win2_2.rect t)).set ↔ _
  rw [View.set_slice_whole, Rect.mem_set_unit]
  exact Iff.rfl

/-- Every row lies in the block of the point r / 10000. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  refine ⟨⟨(i 0).val / 10000, by rw [show cfg2.N = 10 from N_2]; omega⟩, flush2_2 _, ?_⟩
  rw [mem_blk]
  obtain ⟨e0, e1, e2, e3, e4, e5⟩ := idx_facts ⟨(i 0).val / 10000, by rw [show cfg2.N = 10 from N_2]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 2 ≤ (i 1).val ∧ (i 1).val < win2_2.index _ (1 : Fin 2) * 2 + 2; rw [e5]; omega

/-- After the region, the result array is the row-wise log-softmax of the biased table the region found. -/
theorem final (c : Dev nD) : (dat2 V c).arrAt 2 cfg2.N = logSoftmaxRows (V c main_v58) (V c main_v59) :=
  (dat2 V c).arrAt_eq_of_cover 2 _ (fun t _ => flushed_eq V c t) (cover)

end Cert.Gcn.LogSoftmax

end
-- ==== Proof.Boundaries.lean ====
/-
  Between the three dense stages the kernel program runs host operations: first the edge lists and the edge weights
  (from the edge array alone), then, after each of the first two dense stages, one propagation step. Here the program is
  followed boundary by boundary: each stretch of host operations writes the corresponding pieces of the network and
  leaves every other buffer alone, each dense stage writes its table (the block-by-block results put together) and
  leaves every other buffer alone. The bias vectors enter the second and third stages recast as one-row tables. At the
  last boundary the result buffer holds the network's value on the six arguments.
-/
import proofs.«146846_j30459908063653_1_alg».proof.Proof.Gen.KernelIdeal.Frame
import proofs.«146846_j30459908063653_1_alg».proof.Proof.Network
import proofs.«146846_j30459908063653_1_alg».proof.Proof.Dense1
import proofs.«146846_j30459908063653_1_alg».proof.Proof.Dense2
import proofs.«146846_j30459908063653_1_alg».proof.Proof.LogSoftmax
import Idealize.ShloMosaic.Lib.StableHlo.Run
import Idealize.ShloMosaic.Lib.ValueLayout

set_option maxRecDepth 16384

noncomputable section

namespace Cert.Gcn.Boundaries

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The six arguments as launched. -/
abbrev xArr : FArr S100000x128 := m ((c : Thread nD τ).loc main_arg0)
abbrev edgeArr : IArr S2x1600000 := m ((c : Thread nD τ).loc main_arg1)
abbrev w1Arr : FArr S128x32 := m ((c : Thread nD τ).loc main_arg2)
abbrev b1Arr : FArr S32 := m ((c : Thread nD τ).loc main_arg3)
abbrev w2Arr : FArr S32x2 := m ((c : Thread nD τ).loc main_arg4)
abbrev b2Arr : FArr S2 := m ((c : Thread nD τ).loc main_arg5)

/-! ## Up to the first dense stage: the edge lists, the weights, the arguments untouched -/

theorem W1_sources : W1 m ρ c (Proc.devRef .tc main_v3) = sources (edgeArr m c) := by
  show StableHlo.after hostOps0 (W0 m ρ c) (Proc.devRef .tc main_v3) = _
  dsimp only [hostOps0]
  after_results
  rfl

theorem W1_targets : W1 m ρ c (Proc.devRef .tc main_v6) = targets (edgeArr m c) := by
  show StableHlo.after hostOps0 (W0 m ρ c) (Proc.devRef .tc main_v6) = _
  dsimp only [hostOps0]
  after_results
  rfl

theorem W1_degree : W1 m ρ c (Proc.devRef .tc main_v10) = inDegree (targets (edgeArr m c)) := by
  show StableHlo.after hostOps0 (W0 m ρ c) (Proc.devRef .tc main_v10) = _
  dsimp only [hostOps0]
  after_results
  rfl

theorem W1_positive : W1 m ρ c (Proc.devRef .tc main_v12)
    = cmpf .ogt (inDegree (targets (edgeArr m c))) (broadcastInDim S100000 ![] Facts₀.bcast_S_S100000 (constant (F := Ideal) S_ .f32 0x00000000#32)) := by
  show StableHlo.after hostOps0 (W0 m ρ c) (Proc.devRef .tc main_v12) = _
  dsimp only [hostOps0]
  after_results
  rfl

theorem W1_rsqrt : W1 m ρ c (Proc.devRef .tc main_v13) = Host.rsqrt (inDegree (targets (edgeArr m c))) := by
  show StableHlo.after hostOps0 (W0 m ρ c) (Proc.devRef .tc main_v13) = _
  dsimp only [hostOps0]
  after_results
  rfl

theorem W1_zero : W1 m ρ c (Proc.devRef .tc main_cst_2) = constant (F := Ideal) S_ .f32 0x00000000#32 := by
  show StableHlo.after hostOps0 (W0 m ρ c) (Proc.devRef .tc main_cst_2) = _
  dsimp only [hostOps0]
  after_results

/-- The selection step on any contents: where the comparison holds take the reciprocal square root, elsewhere the zero. -/
theorem where_step (V1 : Valuation τ sig (Elt Ideal)) (A : IVec S100000 1) (R : FVec Ideal S100000 .f32) (Z : FVec Ideal S_ .f32)
    (h12 : V1 (Proc.devRef .tc main_v12) = A) (h13 : V1 (Proc.devRef .tc main_v13) = R) (h0 : V1 (Proc.devRef .tc main_cst_2) = Z) :
    StableHlo.after hostOps0_1 V1 (Proc.devRef .tc main_v14)
      = select A R (broadcastInDim S100000 ![] Facts₀.bcast_S_S100000 (id Z)) := by
  dsimp only [hostOps0_1]
  after_results
  rw [h12, h13, h0]
  -- what is left are recasts of a table between two spellings of one type
  simp only [TRef.toBuf, TRef.ofBuf, cast_eq]

theorem W2_invSqrtDegree : W2 m ρ c (Proc.devRef .tc main_v14) = invSqrtDegree (targets (edgeArr m c)) :=
  where_step (W1 m ρ c) _ _ _ (W1_positive m ρ c) (W1_rsqrt m ρ c) (W1_zero m ρ c)

theorem W2_sources : W2 m ρ c (Proc.devRef .tc main_v3) = sources (edgeArr m c) := by
  have h := W1_sources m ρ c
  show StableHlo.after hostOps0_1 (W1 m ρ c) (Proc.devRef .tc main_v3) = _
  generalize W1 m ρ c = Vp at h ⊢
  dsimp only [hostOps0_1]
  after_results
  exact h

theorem W2_targets : W2 m ρ c (Proc.devRef .tc main_v6) = targets (edgeArr m c) := by
  have h := W1_targets m ρ c
  show StableHlo.after hostOps0_1 (W1 m ρ c) (Proc.devRef .tc main_v6) = _
  generalize W1 m ρ c = Vp at h ⊢
  dsimp only [hostOps0_1]
  after_results
  exact h

set_option maxHeartbeats 2000000 in
theorem W3_weights : W3 m ρ c (Proc.devRef .tc main_v29) = edgeWeight (sources (edgeArr m c)) (targets (edgeArr m c)) := by
  have h14 := W2_invSqrtDegree m ρ c
  have hs := W2_sources m ρ c
  have ht := W2_targets m ρ c
  show StableHlo.after hostOps0_2 (W2 m ρ c) (Proc.devRef .tc main_v29) = _
  generalize W2 m ρ c = V2 at h14 hs ht ⊢
  dsimp only [hostOps0_2]
  after_results
  rw [h14, hs, ht]
  unfold edgeWeight fromEnd
  first | with_reducible rfl | rfl

theorem W3_sources : W3 m ρ c (Proc.devRef .tc main_v3) = sources (edgeArr m c) := by
  have h := W2_sources m ρ c
  show StableHlo.after hostOps0_2 (W2 m ρ c) (Proc.devRef .tc main_v3) = _
  generalize W2 m ρ c = Vp at h ⊢
  dsimp only [hostOps0_2]
  after_results
  exact h

theorem W3_targets : W3 m ρ c (Proc.devRef .tc main_v6) = targets (edgeArr m c) := by
  have h := W2_targets m ρ c
  show StableHlo.after hostOps0_2 (W2 m ρ c) (Proc.devRef .tc main_v6) = _
  generalize W2 m ρ c = Vp at h ⊢
  dsimp only [hostOps0_2]
  after_results
  exact h

theorem W3_arg0 : W3 m ρ c (Proc.devRef .tc main_arg0) = xArr m c := by
  show StableHlo.after hostOps0_2 (StableHlo.after hostOps0_1 (StableHlo.after hostOps0 (W0 m ρ c))) (Proc.devRef .tc main_arg0) = _
  dsimp only [hostOps0, hostOps0_1, hostOps0_2]
  after_results

theorem W3_arg2 : W3 m ρ c (Proc.devRef .tc main_arg2) = w1Arr m c := by
  show StableHlo.after hostOps0_2 (StableHlo.after hostOps0_1 (StableHlo.after hostOps0 (W0 m ρ c))) (Proc.devRef .tc main_arg2) = _
  dsimp only [hostOps0, hostOps0_1, hostOps0_2]
  after_results

theorem W3_arg3 : W3 m ρ c (Proc.devRef .tc main_arg3) = b1Arr m c := by
  show StableHlo.after hostOps0_2 (StableHlo.after hostOps0_1 (StableHlo.after hostOps0 (W0 m ρ c))) (Proc.devRef .tc main_arg3) = _
  dsimp only [hostOps0, hostOps0_1, hostOps0_2]
  after_results

theorem W3_arg4 : W3 m ρ c (Proc.devRef .tc main_arg4) = w2Arr m c := by
  show StableHlo.after hostOps0_2 (StableHlo.after hostOps0_1 (StableHlo.after hostOps0 (W0 m ρ c))) (Proc.devRef .tc main_arg4) = _
  dsimp only [hostOps0, hostOps0_1, hostOps0_2]
  after_results

theorem W3_arg5 : W3 m ρ c (Proc.devRef .tc main_arg5) = b2Arr m c := by
  show StableHlo.after hostOps0_2 (StableHlo.after hostOps0_1 (StableHlo.after hostOps0 (W0 m ρ c))) (Proc.devRef .tc main_arg5) = _
  dsimp only [hostOps0, hostOps0_1, hostOps0_2]
  after_results

/-! ## The first dense stage -/

theorem W4_dense : W4 m ρ c (Proc.devRef .tc main_v30) = inputTimesW1 (xArr m c) (w1Arr m c) := by
  refine (W4_arr m ρ c 2).trans ((Dense1.final (V3 m ρ) c).trans ?_)
  show inputTimesW1 (W3 m ρ c (Proc.devRef .tc main_arg0)) (W3 m ρ c (Proc.devRef .tc main_arg2)) = _
  rw [W3_arg0, W3_arg2]

theorem W4_weights : W4 m ρ c (Proc.devRef .tc main_v29) = edgeWeight (sources (edgeArr m c)) (targets (edgeArr m c)) :=
  (W4_of_ne m ρ c main_v29 (by decide)).trans (W3_weights m ρ c)

theorem W4_sources : W4 m ρ c (Proc.devRef .tc main_v3) = sources (edgeArr m c) :=
  (W4_of_ne m ρ c main_v3 (by decide)).trans (W3_sources m ρ c)

theorem W4_targets : W4 m ρ c (Proc.devRef .tc main_v6) = targets (edgeArr m c) :=
  (W4_of_ne m ρ c main_v6 (by decide)).trans (W3_targets m ρ c)

theorem W4_arg3 : W4 m ρ c (Proc.devRef .tc main_arg3) = b1Arr m c :=
  (W4_of_ne m ρ c main_arg3 (by decide)).trans (W3_arg3 m ρ c)

theorem W4_arg4 : W4 m ρ c (Proc.devRef .tc main_arg4) = w2Arr m c :=
  (W4_of_ne m ρ c main_arg4 (by decide)).trans (W3_arg4 m ρ c)

theorem W4_arg5 : W4 m ρ c (Proc.devRef .tc main_arg5) = b2Arr m c :=
  (W4_of_ne m ρ c main_arg5 (by decide)).trans (W3_arg5 m ρ c)

/-! ## The first propagation step -/

set_option maxHeartbeats 2000000 in
theorem W5_propagated : W5 m ρ c (Proc.devRef .tc main_v43) = propagate32 (edgeWeight (sources (edgeArr m c)) (targets (edgeArr m c))) (sources (edgeArr m c)) (targets (edgeArr m c)) (inputTimesW1 (xArr m c) (w1Arr m c)) := by
  show StableHlo.after hostOps1 (W4 m ρ c) (Proc.devRef .tc main_v43) = _
  dsimp only [hostOps1]
  after_results
  rw [W4_dense, W4_weights, W4_sources, W4_targets]
  unfold propagate32 fromEnd
  first | with_reducible rfl | rfl

/-- The bias vector recast as a one-row table. -/
theorem W5_bias : W5 m ρ c (Proc.devRef .tc main_v44) = asRow32 (b1Arr m c) := by
  show StableHlo.after hostOps1 (W4 m ρ c) (Proc.devRef .tc main_v44) = _
  dsimp only [hostOps1]
  after_results
  rw [W4_arg3]
  funext i
  obtain ⟨u, k, rfl⟩ : ∃ (u : Fin 1) (k : Fin 32), i = ix2 u k := ⟨i 0, i 1, eq_ix2 i⟩
  exact shapeCast_a_1a_apply (b1Arr m c) _ u k

theorem W5_weights : W5 m ρ c (Proc.devRef .tc main_v29) = edgeWeight (sources (edgeArr m c)) (targets (edgeArr m c)) := by
  show StableHlo.after hostOps1 (W4 m ρ c) (Proc.devRef .tc main_v29) = _
  dsimp only [hostOps1]
  after_results
  exact W4_weights m ρ c

theorem W5_sources : W5 m ρ c (Proc.devRef .tc main_v3) = sources (edgeArr m c) := by
  show StableHlo.after hostOps1 (W4 m ρ c) (Proc.devRef .tc main_v3) = _
  dsimp only [hostOps1]
  after_results
  exact W4_sources m ρ c

theorem W5_targets : W5 m ρ c (Proc.devRef .tc main_v6) = targets (edgeArr m c) := by
  show StableHlo.after hostOps1 (W4 m ρ c) (Proc.devRef .tc main_v6) = _
  dsimp only [hostOps1]
  after_results
  exact W4_targets m ρ c

theorem W5_arg4 : W5 m ρ c (Proc.devRef .tc main_arg4) = w2Arr m c := by
  show StableHlo.after hostOps1 (W4 m ρ c) (Proc.devRef .tc main_arg4) = _
  dsimp only [hostOps1]
  after_results
  exact W4_arg4 m ρ c

theorem W5_arg5 : W5 m ρ c (Proc.devRef .tc main_arg5) = b2Arr m c := by
  show StableHlo.after hostOps1 (W4 m ρ c) (Proc.devRef .tc main_arg5) = _
  dsimp only [hostOps1]
  after_results
  exact W4_arg5 m ρ c

/-! ## The second dense stage -/

theorem W6_dense : W6 m ρ c (Proc.devRef .tc main_v45) = hiddenTimesW2 (propagate32 (edgeWeight (sources (edgeArr m c)) (targets (edgeArr m c))) (sources (edgeArr m c)) (targets (edgeArr m c)) (inputTimesW1 (xArr m c) (w1Arr m c))) (asRow32 (b1Arr m c)) (w2Arr m c) := by
  refine (W6_arr m ρ c 3).trans ((Dense2.final (V5 m ρ) c).trans ?_)
  show hiddenTimesW2 (W5 m ρ c (Proc.devRef .tc main_v43)) (W5 m ρ c (Proc.devRef .tc main_v44)) (W5 m ρ c (Proc.devRef .tc main_arg4)) = _
  rw [W5_propagated, W5_bias, W5_arg4]

theorem W6_weights : W6 m ρ c (Proc.devRef .tc main_v29) = edgeWeight (sources (edgeArr m c)) (targets (edgeArr m c)) :=
  (W6_of_ne m ρ c main_v29 (by decide)).trans (W5_weights m ρ c)

theorem W6_sources : W6 m ρ c (Proc.devRef .tc main_v3) = sources (edgeArr m c) :=
  (W6_of_ne m ρ c main_v3 (by decide)).trans (W5_sources m ρ c)

theorem W6_targets : W6 m ρ c (Proc.devRef .tc main_v6) = targets (edgeArr m c) :=
  (W6_of_ne m ρ c main_v6 (by decide)).trans (W5_targets m ρ c)

theorem W6_arg5 : W6 m ρ c (Proc.devRef .tc main_arg5) = b2Arr m c :=
  (W6_of_ne m ρ c main_arg5 (by decide)).trans (W5_arg5 m ρ c)

/-! ## The second propagation step -/

set_option maxHeartbeats 2000000 in
theorem W7_propagated : W7 m ρ c (Proc.devRef .tc main_v58) = propagate2 (edgeWeight (sources (edgeArr m c)) (targets (edgeArr m c))) (sources (edgeArr m c)) (targets (edgeArr m c)) (hiddenTimesW2 (propagate32 (edgeWeight (sources (edgeArr m c)) (targets (edgeArr m c))) (sources (edgeArr m c)) (targets (edgeArr m c)) (inputTimesW1 (xArr m c) (w1Arr m c))) (asRow32 (b1Arr m c)) (w2Arr m c)) := by
  show StableHlo.after hostOps2 (W6 m ρ c) (Proc.devRef .tc main_v58) = _
  dsimp only [hostOps2]
  after_results
  rw [W6_dense, W6_weights, W6_sources, W6_targets]
  unfold propagate2 fromEnd
  first | with_reducible rfl | rfl

theorem W7_bias : W7 m ρ c (Proc.devRef .tc main_v59) = asRow2 (b2Arr m c) := by
  show StableHlo.after hostOps2 (W6 m ρ c) (Proc.devRef .tc main_v59) = _
  dsimp only [hostOps2]
  after_results
  rw [W6_arg5]
  funext i
  obtain ⟨u, k, rfl⟩ : ∃ (u : Fin 1) (k : Fin 2), i = ix2 u k := ⟨i 0, i 1, eq_ix2 i⟩
  exact shapeCast_a_1a_apply (b2Arr m c) _ u k

/-! ## The last stage: the result buffer holds the network's value -/

theorem result_eq : W8 m ρ c (Proc.devRef .tc main_v60)
    = network (xArr m c) (edgeArr m c) (w1Arr m c) (b1Arr m c) (w2Arr m c) (b2Arr m c) := by
  refine (W8_arr m ρ c 2).trans ((LogSoftmax.final (V7 m ρ) c).trans ?_)
  show logSoftmaxRows (W7 m ρ c (Proc.devRef .tc main_v58)) (W7 m ρ c (Proc.devRef .tc main_v59)) = _
  rw [W7_propagated, W7_bias]
  rfl

end Cert.Gcn.Boundaries

end
-- ==== Proof.RefRun.lean ====
/-
  The reference program's run.

  The reference program is a straight line of 98 array operations (the three functions it calls stand in their calls'
  places, operation by operation). Every weakly fair run of it ends, and leaves every buffer at the value obtained by
  applying the operations in order to the launch contents: `after ops` of the launch contents. The arguments are never
  written, so they end as they began.
-/
import proofs.«146846_j30459908063653_1_alg».proof.Proof.Gen.ReferenceIdeal
import Idealize.ShloMosaic.Lib.StableHlo.Run
import Idealize.ShloMosaic.PureOps.Ideal

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-- A list of 1600000 node numbers followed by the 100000 self loops' node numbers. -/
def withSelfLoops (a : IVec S1600000 32) (b : IVec S100000 32) : IVec S1700000 32 :=
  concatenate S1700000 0 [⟨S1600000, a⟩, ⟨S100000, b⟩] concatenates_S1600000_S100000_S1700000_d0

/-- The program's 98 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 (withSelfLoops : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 (withSelfLoops : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_v29 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v30 main_v37 main_v38 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v31 main_v39 (broadcastInDim S1700000x32 ![0, 1] bcast_S1700000x1_S1700000x32_0_1 : (⟨S1700000x1, .f32⟩ : BufTy).Contents (Elt F) → (⟨S1700000x32, .f32⟩ : BufTy).Contents (Elt F)),
    binary main_v39 main_v38 main_v40 (mulf : (⟨S1700000x32, .f32⟩ : BufTy).Contents (Elt F) → (⟨S1700000x32, .f32⟩ : BufTy).Contents (Elt F) → (⟨S1700000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    nullary main_call1_cst (constant S_ .f32 0x00000000#32),
    unary main_call1_cst main_call1_v0 ((broadcastInDim S100000x32 ![] bcast_S_S100000x32) : (⟨S_, .f32⟩ : BufTy).Contents (Elt F) → (⟨S100000x32, .f32⟩ : BufTy).Contents (Elt F)),
    binary main_v46 main_call1_v0 main_v47 (maximumf : (⟨S100000x32, .f32⟩ : BufTy).Contents (Elt F) → (⟨S100000x32, .f32⟩ : BufTy).Contents (Elt F) → (⟨S100000x32, .f32⟩ : BufTy).Contents (Elt F)),
    binary main_v47 main_arg4 main_v48 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    unary main_v29 main_v49 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v48 main_v55 main_v56 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v49 main_v57 (broadcastInDim S1700000x2 ![0, 1] bcast_S1700000x1_S1700000x2_0_1 : (⟨S1700000x1, .f32⟩ : BufTy).Contents (Elt F) → (⟨S1700000x2, .f32⟩ : BufTy).Contents (Elt F)),
    binary main_v57 main_v56 main_v58 (mulf : (⟨S1700000x2, .f32⟩ : BufTy).Contents (Elt F) → (⟨S1700000x2, .f32⟩ : BufTy).Contents (Elt F) → (⟨S1700000x2, .f32⟩ : BufTy).Contents (Elt F)),
    nullary main_cst_11 (constant S_ .f32 0x00000000#32),
    unary main_cst_11 main_v59 (broadcastInDim S100000x2 ![] bcast_S_S100000x2 : (⟨S_, .f32⟩ : BufTy).Contents (Elt F) → (⟨S100000x2, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    unary main_arg5 main_v62 (broadcastInDim S1x2 ![1] bcast_S2_S1x2_1 : (⟨S2, .f32⟩ : BufTy).Contents (Elt F) → (⟨S1x2, .f32⟩ : BufTy).Contents (Elt F)),
    unary main_v62 main_v63 (broadcastInDim S100000x2 ![0, 1] bcast_S1x2_S100000x2_0_1 : (⟨S1x2, .f32⟩ : BufTy).Contents (Elt F) → (⟨S100000x2, .f32⟩ : BufTy).Contents (Elt F)),
    binary main_v61 main_v63 main_v64 (addf : (⟨S100000x2, .f32⟩ : BufTy).Contents (Elt F) → (⟨S100000x2, .f32⟩ : BufTy).Contents (Elt F) → (⟨S100000x2, .f32⟩ : BufTy).Contents (Elt F)),
    nullary main_call2_cst (constant S_ .f32 0xFF800000#32),
    binary main_v64 main_call2_cst main_call2_v0 ((fun x v => Host.reduce FloatOps.maximumf x v reducesTo_S100000x2_S100000_d1 h_S_) : (⟨S100000x2, .f32⟩ : BufTy).Contents (Elt F) → (⟨S_, .f32⟩ : BufTy).Contents (Elt F) → (⟨S100000, .f32⟩ : BufTy).Contents (Elt F)),
    nullary main_call2_cst_0 (constant S_ .f32 0xFF800000#32),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x2 ![0, 1] bcast_S100000x1_S100000x2_0_1) : (⟨S100000x1, .f32⟩ : BufTy).Contents (Elt F) → (⟨S100000x2, .f32⟩ : BufTy).Contents (Elt F)),
    binary main_v64 main_call2_v4 main_call2_v5 (subf : (⟨S100000x2, .f32⟩ : BufTy).Contents (Elt F) → (⟨S100000x2, .f32⟩ : BufTy).Contents (Elt F) → (⟨S100000x2, .f32⟩ : BufTy).Contents (Elt F)),
    unary main_call2_v5 main_call2_v6 (Host.exp : (⟨S100000x2, .f32⟩ : BufTy).Contents (Elt F) → (⟨S100000x2, .f32⟩ : BufTy).Contents (Elt F)),
    nullary main_call2_cst_1 (constant S_ .f32 0x00000000#32),
    binary main_call2_v6 main_call2_cst_1 main_call2_v7 ((fun x v => Host.reduceAdd x v reducesTo_S100000x2_S100000_d1 h_S_) : (⟨S100000x2, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 ((broadcastInDim S100000x2 ![0, 1] bcast_S100000x1_S100000x2_0_1) : (⟨S100000x1, .f32⟩ : BufTy).Contents (Elt F) → (⟨S100000x2, .f32⟩ : BufTy).Contents (Elt F)),
    binary main_call2_v5 main_call2_v10 main_v65 (subf : (⟨S100000x2, .f32⟩ : BufTy).Contents (Elt F) → (⟨S100000x2, .f32⟩ : BufTy).Contents (Elt F) → (⟨S100000x2, .f32⟩ : BufTy).Contents (Elt F)) ]

attribute [local irreducible] Host.reduce

set_option maxRecDepth 8192 in
set_option maxHeartbeats 4000000 in
/-- The program is the straight line of these operations. -/
theorem main_eq (c : Dev nD) : main (F := F) c = seq ops := rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation reads and writes buffers of the one core only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair run ends with each buffer at the operations' composed value of the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.Gcn.Ref

end
-- ==== Proof.RefHost.lean ====
/-
  The reference program's result as one composed function of its six arguments.

  Reading the program's operations in order, the result is the row-wise log-softmax (spelt as the program spells it:
  a row maximum, a subtraction, an exponential, a row sum, a logarithm, a subtraction) of the second propagation step
  plus the second bias, where the second step acts on the product of relu (first step + first bias) with W2 and the
  first step acts on x times W1. The propagation steps, the edge lists and the edge weights are the very host
  operations the network's definition names; the two products are the host's dot_general.
-/
import proofs.«146846_j30459908063653_1_alg».proof.Proof.Gen.ReferenceIdeal
import proofs.«146846_j30459908063653_1_alg».proof.Proof.Network

noncomputable section

namespace Cert.Gcn.Ref

open Cert.ReferenceIdeal Cert.ReferenceIdeal.Gen Idealize.ShloMosaic

/-- The row maximum as the program computes it: a reduce with a maximum body from −∞ over the two columns, and once
    more the larger of −∞ and it. -/
def rowMaxHost (z : FVec Ideal S100000x2 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x2_S100000_d1 h_S_)

/-- The table with its row maximum subtracted from every entry of the row. -/
def centredHost (z : FVec Ideal S100000x2 .f32) : FVec Ideal S100000x2 .f32 :=
  subf z (broadcastInDim S100000x2 ![0, 1] bcast_S100000x1_S100000x2_0_1 (broadcastInDim S100000x1 ![0] bcast_S100000_S100000x1_0 (rowMaxHost z)))

/-- The row-wise log-softmax of a two-column table, operation by operation as the program computes it:
    d = z − row maximum, then d − log (row sum of exp d). -/
def logSoftmaxHost (z : FVec Ideal S100000x2 .f32) : FVec Ideal S100000x2 .f32 :=
  subf (centredHost z)
    (broadcastInDim S100000x2 ![0, 1] bcast_S100000x1_S100000x2_0_1 (Host.log (broadcastInDim S100000x1 ![0] bcast_S100000_S100000x1_0
      (Host.reduceAdd (Host.exp (centredHost z)) (constant (F := Ideal) S_ .f32 0x00000000#32) reducesTo_S100000x2_S100000_d1 h_S_))))

/-- The program's result in terms of its six arguments. -/
def hostNet (x : FVec Ideal S100000x128 .f32) (e : IVec S2x1600000 32) (w1 : FVec Ideal S128x32 .f32) (b1 : FVec Ideal S32 .f32)
    (w2 : FVec Ideal S32x2 .f32) (b2 : FVec Ideal S2 .f32) : FVec Ideal S100000x2 .f32 :=
  logSoftmaxHost
    (addf
      (Cert.Gcn.propagate2 (Cert.Gcn.edgeWeight (Cert.Gcn.sources e) (Cert.Gcn.targets e)) (Cert.Gcn.sources e) (Cert.Gcn.targets e)
        (Host.dotGeneral dot_S100000x32_S32x2_S100000x2_1_0_0_1_n_n none
          (maximumf
            (addf
              (Cert.Gcn.propagate32 (Cert.Gcn.edgeWeight (Cert.Gcn.sources e) (Cert.Gcn.targets e)) (Cert.Gcn.sources e) (Cert.Gcn.targets e)
                (Host.dotGeneral dot_S100000x128_S128x32_S100000x32_1_0_0_1_n_n none x w1))
              (broadcastInDim S100000x32 ![0, 1] bcast_S1x32_S100000x32_0_1 (broadcastInDim S1x32 ![1] bcast_S32_S1x32_1 b1)))
            (broadcastInDim S100000x32 ![] bcast_S_S100000x32 (constant (F := Ideal) S_ .f32 0x00000000#32)))
          w2))
      (broadcastInDim S100000x2 ![0, 1] bcast_S1x2_S100000x2_0_1 (broadcastInDim S1x2 ![1] bcast_S2_S1x2_1 b2)))

end Cert.Gcn.Ref

end
-- ==== Proof.RefDense.lean ====
/-
  The three dense stages of the reference program, index by index.

  The host's two products are plain row-times-matrix sums over the contracted coordinate (128 terms, then 32); the bias
  tables the program builds by two broadcasts read, at an entry, the bias vector at the entry's column; and the
  program's log-softmax (row maximum from −∞, subtraction, exponential, row sum from 0, logarithm, subtraction) is, row by
  row, z − m − log Σ_j exp (z_j − m). With these the program's composed result is the network of the specification.
-/
import proofs.«146846_j30459908063653_1_alg».proof.Proof.RefHost
import proofs.«146846_j30459908063653_1_alg».proof.Proof.LibPlainDot
import proofs.«146846_j30459908063653_1_alg».proof.Proof.LibRowReduce
import Idealize.ShloMosaic.Lib.Pipeline.Value
import Idealize.ShloMosaic.Lib.ValueIdx
import Idealize.ShloMosaic.PureOps.Ideal.Laws
import Idealize.ShloMosaic.PureOps.Reduce

noncomputable section

namespace Cert.Gcn.Ref

open Cert.ReferenceIdeal Cert.ReferenceIdeal.Gen Idealize.ShloMosaic Idealize.ShloMosaic.ValueIdx
open scoped BigOperators

attribute [local irreducible] Host.reduce

local notation "dotA" => dot_S100000x128_S128x32_S100000x32_1_0_0_1_n_n
local notation "dotB" => dot_S100000x32_S32x2_S100000x2_1_0_0_1_n_n

/-! ## Where the two products' dimension numbers send an output index and a contraction index -/

theorem lhs0A (i : S100000x32.Idx) (q : (dotA).contr.Idx) : ((dotA).lhsIdx i q 0).val = (i 0).val := by
  unfold DotDims.lhsIdx
  rw [dif_neg (show ¬(0 : Fin S100000x128.rank) ∈ (dotA).lhsBatch by decide), dif_pos (show (0 : Fin S100000x128.rank) ∈ (dotA).lhsNonContracting by decide)]
  rfl
theorem lhs1A (i : S100000x32.Idx) (q : (dotA).contr.Idx) : ((dotA).lhsIdx i q 1).val = (q ⟨0, by decide⟩).val :=
  (dotA).lhsIdx_val_of_single rfl i q
theorem rhs0A (i : S100000x32.Idx) (q : (dotA).contr.Idx) : ((dotA).rhsIdx i q 0).val = (q ⟨0, by decide⟩).val :=
  (dotA).rhsIdx_val_of_single rfl i q
theorem rhs1A (i : S100000x32.Idx) (q : (dotA).contr.Idx) : ((dotA).rhsIdx i q 1).val = (i 1).val := by
  unfold DotDims.rhsIdx
  rw [dif_neg (show ¬(1 : Fin S128x32.rank) ∈ (dotA).rhsBatch by decide), dif_pos (show (1 : Fin S128x32.rank) ∈ (dotA).rhsNonContracting by decide)]
  rfl

theorem lhs0B (i : S100000x2.Idx) (q : (dotB).contr.Idx) : ((dotB).lhsIdx i q 0).val = (i 0).val := by
  unfold DotDims.lhsIdx
  rw [dif_neg (show ¬(0 : Fin S100000x32.rank) ∈ (dotB).lhsBatch by decide), dif_pos (show (0 : Fin S100000x32.rank) ∈ (dotB).lhsNonContracting by decide)]
  rfl
theorem lhs1B (i : S100000x2.Idx) (q : (dotB).contr.Idx) : ((dotB).lhsIdx i q 1).val = (q ⟨0, by decide⟩).val :=
  (dotB).lhsIdx_val_of_single rfl i q
theorem rhs0B (i : S100000x2.Idx) (q : (dotB).contr.Idx) : ((dotB).rhsIdx i q 0).val = (q ⟨0, by decide⟩).val :=
  (dotB).rhsIdx_val_of_single rfl i q
theorem rhs1B (i : S100000x2.Idx) (q : (dotB).contr.Idx) : ((dotB).rhsIdx i q 1).val = (i 1).val := by
  unfold DotDims.rhsIdx
  rw [dif_neg (show ¬(1 : Fin S32x2.rank) ∈ (dotB).rhsBatch by decide), dif_pos (show (1 : Fin S32x2.rank) ∈ (dotB).rhsNonContracting by decide)]
  rfl

/-! ## The first product -/

/-- The host's product of x and W1 is the table of the sums over the 128 contracted coordinates. -/
theorem dense1 (x : FVec Ideal S100000x128 .f32) (w : FVec Ideal S128x32 .f32) :
    Host.dotGeneral dotA none x w = Cert.Gcn.inputTimesW1 x w := by
  funext i
  refine (Ideal.dotGeneral_apply dotA none .single x w i).trans ?_
  exact PlainDot.sum_contr_eq dotA rfl rfl lhs0A lhs1A rhs0A rhs1A _ _ i

/-! ## The second product, of the rectified biased table -/

/-- The first bias, laid out as a row and repeated down the rows, read at an entry. -/
theorem bias32_apply (b1 : FVec Ideal S32 .f32) (r : Fin 100000) (k : Fin 32) :
    broadcastInDim S100000x32 ![0, 1] bcast_S1x32_S100000x32_0_1 (broadcastInDim S1x32 ![1] bcast_S32_S1x32_1 b1) (ix2 r k)
      = Cert.Gcn.asRow32 b1 (ix2 0 k) := by
  rw [broadcastInDim_apply _ _ _ _ (ix2 (0 : Fin 1) k) (fun a => by match a with | ⟨0, _⟩ => rfl | ⟨1, _⟩ => rfl)]
  rw [broadcastInDim_apply _ _ _ _ (ix1 k) (fun a => by match a with | ⟨0, _⟩ => rfl)]
  rfl

/-- The host's product of relu (a + b1) and W2 is the table of the sums over the 32 contracted coordinates. -/
theorem dense2 (a : FVec Ideal S100000x32 .f32) (b1 : FVec Ideal S32 .f32) (w : FVec Ideal S32x2 .f32) :
    Host.dotGeneral dotB none
        (maximumf (addf a (broadcastInDim S100000x32 ![0, 1] bcast_S1x32_S100000x32_0_1 (broadcastInDim S1x32 ![1] bcast_S32_S1x32_1 b1)))
          (broadcastInDim S100000x32 ![] bcast_S_S100000x32 (constant (F := Ideal) S_ .f32 0x00000000#32))) w
      = Cert.Gcn.hiddenTimesW2 a (Cert.Gcn.asRow32 b1) w := by
  funext i
  refine (Ideal.dotGeneral_apply dotB none .single _ w i).trans ?_
  refine (PlainDot.sum_contr_eq dotB rfl rfl lhs0B lhs1B rhs0B rhs1B _ _ i).trans ?_
  unfold Cert.Gcn.hiddenTimesW2
  refine Finset.sum_congr rfl fun k _ => ?_
  refine congrArg (· * w (ix2 k (i 1))) ?_
  show max (a (ix2 (i 0) k) + broadcastInDim S100000x32 ![0, 1] bcast_S1x32_S100000x32_0_1 (broadcastInDim S1x32 ![1] bcast_S32_S1x32_1 b1) (ix2 (i 0) k))
        (Ideal.ofBits .f32 0x00000000#32)
      = max (a (ix2 (i 0) k) + Cert.Gcn.asRow32 b1 (ix2 0 k)) (Ideal.ofBits .f32 0x00000000#32)
  exact congrArg (fun t => max (a (ix2 (i 0) k) + t) (Ideal.ofBits .f32 0x00000000#32)) (bias32_apply b1 (i 0) k)

/-! ## The log-softmax -/

/-- −∞ is the least value: the larger of it and y is y. -/
theorem max_negInf (y : Ideal .f32) : max (Ideal.ofBits .f32 0xFF800000#32) y = y := by
  simp [Ideal.ofBits, Ideal.ieee]

/-- A one-column table repeated across the two columns, read at an entry. -/
theorem acrossCols_apply {α : Type} (u : S100000x1.Idx → α) (r : Fin 100000) (q : Fin 2) :
    broadcastInDim S100000x2 ![0, 1] bcast_S100000x1_S100000x2_0_1 u (ix2 r q) = u (ix2 r (0 : Fin 1)) :=
  broadcastInDim_apply _ _ u _ _ (fun a => by match a with | ⟨0, _⟩ => rfl | ⟨1, _⟩ => rfl)

/-- A vector of row values laid out as a one-column table, read at an entry. -/
theorem asColumn_apply {α : Type} (v : S100000.Idx → α) (r : Fin 100000) (c : Fin 1) :
    broadcastInDim S100000x1 ![0] bcast_S100000_S100000x1_0 v (ix2 r c) = v (ix1 r) :=
  broadcastInDim_apply _ _ v _ _ (fun a => by match a with | ⟨0, _⟩ => rfl)

/-- The program's row maximum at row r is the fold of max from −∞ over the row's two entries. -/
theorem rowMaxHost_apply (z : FVec Ideal S100000x2 .f32) (r : Fin 100000) :
    rowMaxHost z (ix1 r) = (Finset.univ : Finset (Fin 2)).fold max (Ideal.ofBits .f32 0xFF800000#32) (fun j => z (ix2 r j)) := by
  have hR : S100000x2.Reduces [1] S100000 := by decide
  have hfold : Host.reduce FloatOps.maximumf z (constant (F := Ideal) S_ .f32 0xFF800000#32) reducesTo_S100000x2_S100000_d1 h_S_ (ix1 r)
      = (Finset.univ : Finset (Fin 2)).fold max (Ideal.ofBits .f32 0xFF800000#32) (fun j => z (ix2 r j)) := by
    rw [Host.reduce_eq_fold_single FloatOps.maximumf z _ reducesTo_S100000x2_S100000_d1 hR h_S_]
    have hf : (z ∘ hR.lift (ix1 r)) = fun j : Fin 2 => z (ix2 r j) := funext fun k => congrArg z (RowReduce.lift_row hR r k)
    exact congrArg (fun f => Finset.fold max (Ideal.ofBits .f32 0xFF800000#32) f (Finset.univ : Finset (Fin 2))) hf
  show max (Ideal.ofBits .f32 0xFF800000#32)
      (Host.reduce FloatOps.maximumf z (constant (F := Ideal) S_ .f32 0xFF800000#32) reducesTo_S100000x2_S100000_d1 h_S_ (ix1 r)) = _
  rw [hfold]
  exact max_negInf _

/-- The centred table at an entry: the entry minus its row's maximum. -/
theorem centredHost_apply (z : FVec Ideal S100000x2 .f32) (r : Fin 100000) (q : Fin 2) :
    centredHost z (ix2 r q)
      = z (ix2 r q) - (Finset.univ : Finset (Fin 2)).fold max (Ideal.ofBits .f32 0xFF800000#32) (fun j => z (ix2 r j)) := by
  unfold centredHost
  rw [subf_apply, acrossCols_apply, asColumn_apply, rowMaxHost_apply]

/-- The row sum of the exponentials of the centred table. -/
theorem rowSumExp_apply (z : FVec Ideal S100000x2 .f32) (r : Fin 100000) :
    Host.reduceAdd (Host.exp (centredHost z)) (constant (F := Ideal) S_ .f32 0x00000000#32) reducesTo_S100000x2_S100000_d1 h_S_ (ix1 r)
      = ∑ j : Fin 2, Ideal.exp (z (ix2 r j) - (Finset.univ : Finset (Fin 2)).fold max (Ideal.ofBits .f32 0xFF800000#32) (fun j => z (ix2 r j))) := by
  have hR : S100000x2.Reduces [1] S100000 := by decide
  show Ideal.hostReduceAdd reducesTo_S100000x2_S100000_d1 (Host.exp (centredHost z)) (Ideal.ofBits .f32 0x00000000#32) (ix1 r) = _
  rw [Ideal.hostReduceAdd_single reducesTo_S100000x2_S100000_d1 hR, Ideal.ofBits_zero_f32, zero_add]
  show ∑ k : Fin 2, Ideal.exp (centredHost z (hR.lift (ix1 r) k)) = _
  refine Finset.sum_congr rfl fun k _ => ?_
  rw [RowReduce.lift_row hR r k, centredHost_apply]

/-- The program's log-softmax at an entry is the row formula on that row. -/
theorem logSoftmaxHost_apply (z : FVec Ideal S100000x2 .f32) (r : Fin 100000) (q : Fin 2) :
    logSoftmaxHost z (ix2 r q) = Cert.Gcn.rowLogSoftmax (fun j => z (ix2 r j)) q := by
  unfold logSoftmaxHost
  rw [subf_apply, acrossCols_apply]
  rw [show ∀ (u : FVec Ideal S100000x1 .f32) (j : S100000x1.Idx), Host.log u j = Ideal.log (u j) from fun _ _ => rfl]
  rw [asColumn_apply, rowSumExp_apply, centredHost_apply]
  rfl

/-- The second bias, laid out as a row and repeated down the rows, read at an entry. -/
theorem bias2_apply (b2 : FVec Ideal S2 .f32) (r : Fin 100000) (q : Fin 2) :
    broadcastInDim S100000x2 ![0, 1] bcast_S1x2_S100000x2_0_1 (broadcastInDim S1x2 ![1] bcast_S2_S1x2_1 b2) (ix2 r q)
      = Cert.Gcn.asRow2 b2 (ix2 0 q) := by
  rw [broadcastInDim_apply _ _ _ _ (ix2 (0 : Fin 1) q) (fun a => by match a with | ⟨0, _⟩ => rfl | ⟨1, _⟩ => rfl)]
  rw [broadcastInDim_apply _ _ _ _ (ix1 q) (fun a => by match a with | ⟨0, _⟩ => rfl)]
  rfl

/-- The program's log-softmax of the biased table is the row-wise log-softmax of the network's definition. -/
theorem logSoftmax_eq (a : FVec Ideal S100000x2 .f32) (b2 : FVec Ideal S2 .f32) :
    logSoftmaxHost (addf a (broadcastInDim S100000x2 ![0, 1] bcast_S1x2_S100000x2_0_1 (broadcastInDim S1x2 ![1] bcast_S2_S1x2_1 b2)))
      = Cert.Gcn.logSoftmaxRows a (Cert.Gcn.asRow2 b2) := by
  funext i
  refine (congrArg (logSoftmaxHost _) (eq_ix2 i)).trans ?_
  refine (logSoftmaxHost_apply _ (i 0) (i 1)).trans ?_
  show Cert.Gcn.rowLogSoftmax _ (i 1) = Cert.Gcn.rowLogSoftmax (Cert.Gcn.biasedRow a (Cert.Gcn.asRow2 b2) (i 0)) (i 1)
  refine congrArg (fun zr => Cert.Gcn.rowLogSoftmax zr (i 1)) (funext fun j => ?_)
  show a (ix2 (i 0) j) + broadcastInDim S100000x2 ![0, 1] bcast_S1x2_S100000x2_0_1 (broadcastInDim S1x2 ![1] bcast_S2_S1x2_1 b2) (ix2 (i 0) j)
      = a (ix2 (i 0) j) + Cert.Gcn.asRow2 b2 (ix2 0 j)
  exact congrArg (a (ix2 (i 0) j) + ·) (bias2_apply b2 (i 0) j)

/-! ## The program's result is the network -/

theorem hostNet_eq (x : FVec Ideal S100000x128 .f32) (e : IVec S2x1600000 32) (w1 : FVec Ideal S128x32 .f32) (b1 : FVec Ideal S32 .f32)
    (w2 : FVec Ideal S32x2 .f32) (b2 : FVec Ideal S2 .f32) :
    hostNet x e w1 b1 w2 b2 = Cert.Gcn.network x e w1 b1 w2 b2 := by
  unfold hostNet Cert.Gcn.network
  rw [dense1, dense2, logSoftmax_eq]

end Cert.Gcn.Ref

end
-- ==== Proof.RefValue.lean ====
/-
  The reference program's value.

  Applying the program's 98 operations in order to the launch contents leaves the result buffer at the composed
  function of the six arguments, which is the network of the specification; no operation writes an argument. Hence
  every weakly fair run ends with the result buffer at the network of its six arguments and the arguments unchanged.
-/
import proofs.«146846_j30459908063653_1_alg».proof.Proof.RefRun
import proofs.«146846_j30459908063653_1_alg».proof.Proof.RefHost
import proofs.«146846_j30459908063653_1_alg».proof.Proof.RefDense

noncomputable section

namespace Cert.Gcn.Ref

open Cert.ReferenceIdeal Cert.ReferenceIdeal.Gen Idealize.ShloMosaic Idealize.ShloMosaic.TcCoe Idealize.SL.Sem Idealize.ShloMosaic.StableHlo

attribute [local irreducible] Host.reduce Host.scatterAdd Host.gather Host.reduceAdd concatenate

set_option maxRecDepth 8192 in
set_option maxHeartbeats 39200000 in
/-- The result buffer after the 98 operations is the composed function of the six arguments' launch contents. -/
theorem after_result (m : (ℓ : Loc nD τ sig) → Buf (Elt Ideal) ℓ) (c : Dev nD) :
    after (ops (F := Ideal)) (launchContents m c) (Proc.devRef .tc main_v65) = hostNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp <;> rfl

/-! No operation writes an argument. -/

set_option maxRecDepth 8192 in
set_option maxHeartbeats 4000000 in
theorem after_arg0 (m : (ℓ : Loc nD τ sig) → Buf (Elt Ideal) ℓ) (c : Dev nD) :
    after (ops (F := Ideal)) (launchContents m c) (Proc.devRef .tc main_arg0) = m ((c.tc : Thread nD τ).loc main_arg0) := by
  after_results_simp <;> rfl

set_option maxRecDepth 8192 in
set_option maxHeartbeats 4000000 in
theorem after_arg1 (m : (ℓ : Loc nD τ sig) → Buf (Elt Ideal) ℓ) (c : Dev nD) :
    after (ops (F := Ideal)) (launchContents m c) (Proc.devRef .tc main_arg1) = m ((c.tc : Thread nD τ).loc main_arg1) := by
  after_results_simp <;> rfl

set_option maxRecDepth 8192 in
set_option maxHeartbeats 4000000 in
theorem after_arg2 (m : (ℓ : Loc nD τ sig) → Buf (Elt Ideal) ℓ) (c : Dev nD) :
    after (ops (F := Ideal)) (launchContents m c) (Proc.devRef .tc main_arg2) = m ((c.tc : Thread nD τ).loc main_arg2) := by
  after_results_simp <;> rfl

set_option maxRecDepth 8192 in
set_option maxHeartbeats 4000000 in
theorem after_arg3 (m : (ℓ : Loc nD τ sig) → Buf (Elt Ideal) ℓ) (c : Dev nD) :
    after (ops (F := Ideal)) (launchContents m c) (Proc.devRef .tc main_arg3) = m ((c.tc : Thread nD τ).loc main_arg3) := by
  after_results_simp <;> rfl

set_option maxRecDepth 8192 in
set_option maxHeartbeats 4000000 in
theorem after_arg4 (m : (ℓ : Loc nD τ sig) → Buf (Elt Ideal) ℓ) (c : Dev nD) :
    after (ops (F := Ideal)) (launchContents m c) (Proc.devRef .tc main_arg4) = m ((c.tc : Thread nD τ).loc main_arg4) := by
  after_results_simp <;> rfl

set_option maxRecDepth 8192 in
set_option maxHeartbeats 4000000 in
theorem after_arg5 (m : (ℓ : Loc nD τ sig) → Buf (Elt Ideal) ℓ) (c : Dev nD) :
    after (ops (F := Ideal)) (launchContents m c) (Proc.devRef .tc main_arg5) = m ((c.tc : Thread nD τ).loc main_arg5) := by
  after_results_simp <;> rfl

/-- Every weakly fair run of the reference program ends with the result buffer at the network of the six arguments,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c main_v65).trans ((after_result m c).trans (hostNet_eq _ _ _ _ _ _)),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c)⟩)
    (run_after m ρ)

end Cert.Gcn.Ref

end
-- ==== Proof.lean ====
/-
  The certificate of a two-layer graph convolution: out = log_softmax (agg (relu (agg (x · W1) + b1) · W2) + b2), where agg is
  one propagation step over the edge lists (gather the source rows, scale by the symmetric degree weights, add up at the
  targets).

  The kernel program computes the three dense stages — x · W1, relu (· + b1) · W2 and the row-wise log-softmax of (· + b2) —
  block by block, 10000 rows at a time, and runs the propagation steps as host operations between them; the reference
  runs everything as host operations. At the ideal values a block's rows of a matrix product are the rows of the whole
  product, rectifying and adding a bias are entrywise, and a row's log-softmax needs that row alone; narrowing an
  operand to bf16 is the identity. So both programs end with the ONE function `Cert.Gcn.network` of the six arguments in
  their result buffers: the kernel's by following its run boundary by boundary, the reference's by reading its
  operations in order. No law that could fail at an infinite value is used (sums and products are only re-indexed), so
  the precondition is not opened. The ideal pass rewrote nothing, so the kernel's idealization is its own text.
-/
import proofs.«146846_j30459908063653_1_alg».proof.Defs
import proofs.«146846_j30459908063653_1_alg».proof.Proof.Gen.Kernel
import proofs.«146846_j30459908063653_1_alg».proof.Proof.Gen.Kernel.Frame
import proofs.«146846_j30459908063653_1_alg».proof.Proof.Gen.KernelIdeal
import proofs.«146846_j30459908063653_1_alg».proof.Proof.Gen.KernelIdeal.Frame
import proofs.«146846_j30459908063653_1_alg».proof.Proof.Gen.ReferenceIdeal
import proofs.«146846_j30459908063653_1_alg».proof.Proof.Gen.Pre_finite_inputs
import proofs.«146846_j30459908063653_1_alg».proof.Proof.Network
import proofs.«146846_j30459908063653_1_alg».proof.Proof.KernelRun
import proofs.«146846_j30459908063653_1_alg».proof.Proof.Boundaries
import proofs.«146846_j30459908063653_1_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end without a fault and leave their arguments alone. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.Gcn.Ref.run m ρ)

/-- The ideal pass rewrote no operation. -/
theorem preserves : Cert.preserves_Kernel_KernelIdeal := trivial

/-- From memories that agree on the six arguments both idealized programs end with the network's value in their result. -/
theorem algebraic : Cert.algebraic_KernelIdeal_ReferenceIdeal := by
  intro m ρ m' ρ' _ hagree
  refine ⟨fun c => Cert.Gcn.network (Cert.Gcn.Boundaries.xArr m c) (Cert.Gcn.Boundaries.edgeArr m c) (Cert.Gcn.Boundaries.w1Arr m c)
      (Cert.Gcn.Boundaries.b1Arr m c) (Cert.Gcn.Boundaries.w2Arr m c) (Cert.Gcn.Boundaries.b2Arr m c), ?_, ?_⟩
  · exact (θ_run Cert.KernelIdeal.defs _ _).mono
      (fun r h c => ⟨(h c).1.trans (Cert.Gcn.Boundaries.result_eq m ρ c), (h c).2⟩)
      (Cert.Gcn.KernelRun.run_result m ρ)
  · refine (θ_run Cert.ReferenceIdeal.defs _ _).mono (fun _ h c => ⟨(h c).1.trans ?_, (h c).2⟩)
      (Cert.Gcn.Ref.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
